-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S128x4 .f32) (main_arg9 : FVec F S4 .f32) (main_arg10 : FVec F S128x4 .f32) (main_v33 : IVec S_ 1) : IVec S_ 1 :=
  let main_v34 : FVec F S128x4 .f32 := Host.absf main_arg8
  let main_cst_12 : FVec F S_ .f32 := constant S_ .f32 0x7F800000#32
  let main_v35 : FVec F S128x4 .f32 := broadcastInDim S128x4 ![] bcast_S_S128x4 main_cst_12
  let main_v36 : IVec S128x4 1 := cmpf .olt main_v34 main_v35
  let main_c_13 : IVec S_ 1 := constantI S_ 1 1#1
  let main_v37 : IVec S_ 1 := (fun x v => Host.reduce IntOp.andi x v reducesTo_S128x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S128x4 .f32 := Host.absf main_arg10
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x4 .f32) (main_arg9 : FVec F S4 .f32) (main_arg10 : FVec F S128x4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x4 .f32) (main_arg9 : FVec F S4 .f32) (main_arg10 : FVec F S128x4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x4 : Shape := ⟨2, ![1, 4]⟩
abbrev S50000x4 : Shape := ⟨2, ![50000, 4]⟩
abbrev S5000x4 : Shape := ⟨2, ![5000, 4]⟩

abbrev nBuf : Space → Nat
  | .hbm => 88
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x4, .f32⟩
  | .hbm, ⟨9, _⟩ => ⟨S4, .f32⟩
  | .hbm, ⟨10, _⟩ => ⟨S128x4, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S1x4, .f32⟩
  | .hbm, ⟨87, _⟩ => ⟨S50000x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x4, .f32⟩
  | .local _ .vmem, ⟨23, _⟩ => ⟨S128x4, .f32⟩
  | .local _ .vmem, ⟨24, _⟩ => ⟨S1x4, .f32⟩
  | .local _ .vmem, ⟨25, _⟩ => ⟨S5000x4, .f32⟩
  | .local _ .vmem, ⟨26, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S4_S1x4 : S4.ShapeCasts S1x4
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x4.size a ≤ S128x4.size a
  hwx2_2 : ∀ i : grid2.Coords, EltTy.bits .f32 = 32 ∨ (Rect.block (s := S128x4) S128x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x4.size a ≤ S128x4.size a
  hwx2_3 : ∀ i : grid2.Coords, EltTy.bits .f32 = 32 ∨ (Rect.block (s := S128x4) S128x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4.size a ≤ S1x4.size a
  hwx2_4 : ∀ i : grid2.Coords, EltTy.bits .f32 = 32 ∨ (Rect.block (s := S1x4) S1x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x4.size a ≤ S50000x4.size a
  hwx2_5 : ∀ i : grid2.Coords, EltTy.bits .f32 = 32 ∨ (Rect.block (s := S50000x4) S5000x4.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x4 : Shape := ⟨2, ![50000, 4]⟩
abbrev S1x4 : Shape := ⟨2, ![1, 4]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x4, .f32⟩
  | .hbm, ⟨9, _⟩ => ⟨S4, .f32⟩
  | .hbm, ⟨10, _⟩ => ⟨S128x4, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .f32⟩
  | .hbm, ⟨90, _⟩ => ⟨S_, .f32⟩
  | .hbm, ⟨91, _⟩ => ⟨S50000x128, .f32⟩
  | .hbm, ⟨92, _⟩ => ⟨S800000x1, .i32⟩
  | .hbm, ⟨93, _⟩ => ⟨S50000x128, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S50000x4, .f32⟩
  | .hbm, ⟨98, _⟩ => ⟨S1x4, .f32⟩
  | .hbm, ⟨99, _⟩ => ⟨S50000x4, .f32⟩
  | .hbm, ⟨100, _⟩ => ⟨S50000x4, .f32⟩
  | .hbm, ⟨101, _⟩ => ⟨S50000x4, .f32⟩
  | .hbm, ⟨102, _⟩ => ⟨S50000x4, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x4_S50000x4_1_0_0_1_n_n_wf : DotDims.WF S50000x128 S128x4 S50000x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf

class Facts : Prop extends Facts₀ where

variable [Facts]
-- ==== Proof.Results.lean ====
/-
  The program's run with its two result arrays named. The program is three regions among stretches of host operations;
  its run leaves every buffer that outlives a region at the contents the last boundary of the run computes
  (`Gen.W8`: the fold of the stretches and of the regions' write-backs from the launch memory). Read at the two result
  buffers — the last region's output, and the second region's output, which the last region only reads — and at the
  arguments, this is the run the value claim needs: every weakly fair execution terminates, nothing faults, the results
  end at `W8`'s contents and the arguments as launched.
-/
import proofs.«173614_j12687333392406_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the two result buffers at the last
    boundary's contents and the argument arrays as launched. -/
theorem run : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Results

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibDense.lean ====
/-
  The arithmetic the three kernels and the reference share, over the extended reals and over arbitrary extents.
  A dense layer entry: for a row `p` of an `[R, K]` array `x`, a `[K, N]` matrix `w`, a bias `b` of length `N` and an
  `[R, 1]` column of row weights, the entry `(p, q)` is `max (∑ k, x p k · w k q + b q) 0 · col p`. Beside it the two
  row-wise operations: an array times a column of row weights, and an array divided by a column of row normalizers.
  The lemmas read the kernels' vector operations (a matrix product into a zero accumulator, the bias viewed as one row
  and repeated over the rows, a column repeated over the lanes) at one index.
-/
import Idealize.ShloMosaic.Lib.Pipeline.Value
import Idealize.ShloMosaic.Lib.ValueIdx
import Idealize.ShloMosaic.Lib.ValueLayout
import Idealize.ShloMosaic.PureOps.Ideal.Laws
import proofs.«173614_j12687333392406_1_alg».proof.Proof.LibKeepdims

noncomputable section

namespace Cert.Dense

open Idealize.ShloMosaic Idealize.ShloMosaic.ValueIdx

/-- Entry `(p, q)` of the dense layer with relu and row weights. -/
def layerAt {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) : EReal :=
  max ((∑ k : Fin K, x (ix2 p k) * w (ix2 k q)) + b (ix1 q)) (Ideal.ofBits .f32 0x00000000#32) * col (ix2 p (0 : Fin 1))

/-- The dense layer as a whole array. -/
def layer {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) : FVec Ideal ⟨2, ![R, N]⟩ .f32 :=
  fun i => layerAt x w b col (i 0) (i 1)

/-- Every row of `x` times that row's weight. -/
def scaleRows {R N : ℕ} (x : FVec Ideal ⟨2, ![R, N]⟩ .f32) (col : FVec Ideal ⟨2, ![R, 1]⟩ .f32) : FVec Ideal ⟨2, ![R, N]⟩ .f32 :=
  fun i => x i * col (ix2 (i 0) (0 : Fin 1))

/-- Every row of `x` divided by that row's normalizer. -/
def divRows {R N : ℕ} (x : FVec Ideal ⟨2, ![R, N]⟩ .f32) (col : FVec Ideal ⟨2, ![R, 1]⟩ .f32) : FVec Ideal ⟨2, ![R, N]⟩ .f32 :=
  fun i => Ideal.div (x i) (col (ix2 (i 0) (0 : Fin 1)))

theorem layer_apply {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) :
    layer x w b col (ix2 p q) = layerAt x w b col p q := rfl

theorem scaleRows_apply {R N : ℕ} (x : FVec Ideal ⟨2, ![R, N]⟩ .f32) (col : FVec Ideal ⟨2, ![R, 1]⟩ .f32) (p : Fin R) (q : Fin N) :
    scaleRows x col (ix2 p q) = x (ix2 p q) * col (ix2 p (0 : Fin 1)) := rfl

theorem divRows_apply {R N : ℕ} (x : FVec Ideal ⟨2, ![R, N]⟩ .f32) (col : FVec Ideal ⟨2, ![R, 1]⟩ .f32) (p : Fin R) (q : Fin N) :
    divRows x col (ix2 p q) = Ideal.div (x (ix2 p q)) (col (ix2 p (0 : Fin 1))) := rfl

/-- A layer entry depends on row `p` of `x`, on `w`, on `b` and on the weight of row `p` only: two sets of operands that
    agree there give the same entry (a block of rows against the whole array). -/
theorem layerAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨1, ![N]⟩ .f32)
    (col : FVec Ideal ⟨2, ![R, 1]⟩ .f32) (col' : FVec Ideal ⟨2, ![R', 1]⟩ .f32) (p : Fin R) (p' : Fin R') (q : Fin N)
    (hx : ∀ k : Fin K, x (ix2 p k) = x' (ix2 p' k)) (hw : w = w') (hb : b = b')
    (hc : col (ix2 p (0 : Fin 1)) = col' (ix2 p' (0 : Fin 1))) :
    layerAt x w b col p q = layerAt x' w' b' col' p' q := by
  subst hw; subst hb
  unfold layerAt
  rw [hc, Finset.sum_congr rfl fun k _ => by rw [hx k]]

/-- A matrix product into a zero accumulator, rows times columns with one contracted axis, read at `(p, q)`: the sum
    over `k` of `x p k · w k q`. The four hypotheses say which operand coordinates the dimension numbers pick. -/
theorem matmul_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The dense kernel body's arithmetic at `(p, q)`: the product into a zero accumulator, plus the bias viewed as one row
    and repeated over the rows, clamped below at zero, times the row-weight column repeated over the lanes — a layer
    entry. -/
theorem layer_payload {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (col : FVec Ideal ⟨2, ![R, 1]⟩ .f32) (w : FVec Ideal ⟨2, ![K, N]⟩ .f32)
    (b : FVec Ideal ⟨1, ![N]⟩ .f32)
    (hc1 : (⟨2, ![K, N]⟩ : Shape).ShapeCasts ⟨2, ![K, N]⟩) (hc2 : (⟨1, ![N]⟩ : Shape).ShapeCasts ⟨2, ![1, N]⟩)
    (hb1 : (⟨2, ![1, N]⟩ : Shape).Broadcasts ⟨2, ![R, N]⟩) (hb2 : (⟨2, ![R, 1]⟩ : Shape).Broadcasts ⟨2, ![R, N]⟩)
    (p : Fin R) (q : Fin N) :
    mulf (maximumf (addf (matmul d none x (shapeCast ⟨2, ![K, N]⟩ w hc1) (constant (F := Ideal) ⟨2, ![R, N]⟩ .f32 0x00000000#32))
        (broadcastTo ⟨2, ![R, N]⟩ (shapeCast ⟨2, ![1, N]⟩ b hc2) hb1))
        (broadcast ⟨2, ![R, N]⟩ (Scalar.ofBits (F := Ideal) .f32 0x00000000#32)))
      (broadcastTo ⟨2, ![R, N]⟩ col hb2) (ix2 p q)
    = layerAt x w b col p q := by
  rw [mulf_apply, maximumf_apply, addf_apply, broadcast_apply, matmul_rows d hr hs hl0 hl1 hr0 hr1,
    broadcastTo_1b_ab_apply, shapeCast_a_1a_apply, Cert.Keepdims.broadcastTo_a1_ab_apply, shapeCast_self]
  rfl

/-- An array times a column repeated over the lanes, at `(p, q)`. -/
theorem scale_payload {R N : ℕ} (x : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    mulf x (broadcastTo ⟨2, ![R, N]⟩ col hb) (ix2 p q) = x (ix2 p q) * col (ix2 p (0 : Fin 1)) := by
  rw [mulf_apply, Cert.Keepdims.broadcastTo_a1_ab_apply]

/-- An array divided by a column repeated over the lanes, at `(p, q)`. -/
theorem div_payload {R N : ℕ} (x : FVec Ideal ⟨2, ![R, N]⟩ .f32) (col : FVec Ideal ⟨2, ![R, 1]⟩ .f32)
    (hc : (⟨2, ![R, N]⟩ : Shape).ShapeCasts ⟨2, ![R, N]⟩)
    (hb : (⟨2, ![R, 1]⟩ : Shape).Broadcasts ⟨2, ![R, N]⟩) (p : Fin R) (q : Fin N) :
    divf (shapeCast ⟨2, ![R, N]⟩ x hc) (broadcastTo ⟨2, ![R, N]⟩ col hb) (ix2 p q)
      = Ideal.div (x (ix2 p q)) (col (ix2 p (0 : Fin 1))) := by
  rw [divf_apply, Cert.Keepdims.broadcastTo_a1_ab_apply, shapeCast_self]

end Cert.Dense

end
-- ==== Proof.LibHostDense.lean ====
/-
  Host-side forms of a dense layer's parts, read at one index, over the extended reals and over arbitrary extents:
  the host's dot_general of an [R, K] array with a [K, N] array (one contracted axis) at (p, q) is the sum over k of
  x p k · w k q; a length-N vector viewed as a [1, N] row and repeated down R rows reads, at (p, q), the vector at q;
  and a maximum with the zero constant spread over the whole array reads, at an index, max (x i) 0.
-/
import Idealize.ShloMosaic.Lib.Pipeline.Value
import Idealize.ShloMosaic.Lib.ValueIdx
import Idealize.ShloMosaic.PureOps.Ideal.Laws
import proofs.«173614_j12687333392406_1_alg».proof.Proof.LibDense

noncomputable section

namespace Cert.HostDense

open Idealize.ShloMosaic Idealize.ShloMosaic.ValueIdx

/-- The host's dot_general, rows times columns with one contracted axis, read at (p, q): the sum over k of
    x p k · w k q. The four hypotheses say which operand coordinates the dimension numbers pick. Over the extended reals
    it is the same sum as the vector unit's product into a zero accumulator. -/
theorem dotGeneral_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    Host.dotGeneral (F := Ideal) d none x w (ix2 p q) = ∑ k : Fin K, x (ix2 p k) * w (ix2 k q) := by
  simp only [Host.dotGeneral]
  rw [Ideal.dotGeneral_apply, ← Ideal.matmul_constant_zero_apply d none x w (ix2 p q)]
  exact Cert.Dense.matmul_rows d hr hs hl0 hl1 hr0 hr1 x w p q

variable {α : Type}

/-- A length-N vector placed along axis 1 of a [1, N] row, the row then repeated down R rows: at (p, q) the vector at q. -/
theorem rowOfVector_apply {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The maximum with the zero constant spread over the whole array, at an index. -/
theorem maxZero_apply {s : Shape} (x : FVec Ideal s .f32) (h : (⟨0, ![]⟩ : Shape).BroadcastsInDim s (![] : Fin 0 → Fin s.rank)) (i : s.Idx) :
    maximumf x (broadcastInDim s ![] h (constant (F := Ideal) ⟨0, ![]⟩ .f32 0x00000000#32)) i
      = max (x i) (Ideal.ofBits .f32 0x00000000#32) := by
  rw [maximumf_apply, broadcastInDim_apply ![] h _ i ix0 (fun a => a.elim0), constant_apply]

end Cert.HostDense

end
-- ==== Proof.LibSage.lean ====
/-
  One layer of the network, over the extended reals and over arbitrary extents: for a row p of the averaged neighbour
  features `mean` and of the node's own features `x` (both [M, K]), two [K, N] matrices and a bias, entry (p, q) of the
  layer is  ∑ k, mean p k · wl k q  +  ∑ k, x p k · wr k q  +  bias q.  The compute units add the two products first and
  the bias last; the host adds the bias to the first product and the second product last. Addition of extended reals
  is commutative and associative, so the two are one number, with no finiteness needed.
  The lemmas read both spellings at one index (p, q).
-/
import Idealize.ShloMosaic.Lib.Pipeline.Value
import Idealize.ShloMosaic.Lib.ValueIdx
import Idealize.ShloMosaic.Lib.ValueLayout
import Idealize.ShloMosaic.PureOps.Ideal.Laws
import proofs.«173614_j12687333392406_1_alg».proof.Proof.LibDense
import proofs.«173614_j12687333392406_1_alg».proof.Proof.LibHostDense

noncomputable section

namespace Cert.Sage

open Idealize.ShloMosaic Idealize.ShloMosaic.ValueIdx

/-- What the dimension numbers "rows of an [R, K] array times columns of a [K, N] array, one contracted axis" say,
    coordinate by coordinate: the contraction index has one axis of extent K; the left operand is read at
    (row, k), the right one at (k, column). -/
structure RowsByCols {R K N : ℕ} (d : DotDims ⟨2, ![R, K]⟩ ⟨2, ![K, N]⟩ ⟨2, ![R, N]⟩) : Prop where
  rank : d.contr.rank = 1
  size : d.contr.size ⟨0, by omega⟩ = K
  lhs0 : ∀ (j : (⟨2, ![R, N]⟩ : Shape).Idx) (q : d.contr.Idx), (d.lhsIdx j q 0).val = (j 0).val
  lhs1 : ∀ (j : (⟨2, ![R, N]⟩ : Shape).Idx) (q : d.contr.Idx), (d.lhsIdx j q 1).val = (q ⟨0, by omega⟩).val
  rhs0 : ∀ (j : (⟨2, ![R, N]⟩ : Shape).Idx) (q : d.contr.Idx), (d.rhsIdx j q 0).val = (q ⟨0, by omega⟩).val
  rhs1 : ∀ (j : (⟨2, ![R, N]⟩ : Shape).Idx) (q : d.contr.Idx), (d.rhsIdx j q 1).val = (j 1).val

/-- Entry (p, q) of the layer; the bias is held as a [1, N] row. -/
def entry {M K N : ℕ} (mean x : FVec Ideal ⟨2, ![M, K]⟩ .f32) (wl wr : FVec Ideal ⟨2, ![K, N]⟩ .f32)
    (brow : FVec Ideal ⟨2, ![1, N]⟩ .f32) (p : Fin M) (q : Fin N) : EReal :=
  (∑ k : Fin K, mean (ix2 p k) * wl (ix2 k q)) + (∑ k : Fin K, x (ix2 p k) * wr (ix2 k q)) + brow (ix2 (0 : Fin 1) q)

/-- The layer as a whole array. -/
def conv {M K N : ℕ} (mean x : FVec Ideal ⟨2, ![M, K]⟩ .f32) (wl wr : FVec Ideal ⟨2, ![K, N]⟩ .f32)
    (brow : FVec Ideal ⟨2, ![1, N]⟩ .f32) : FVec Ideal ⟨2, ![M, N]⟩ .f32 :=
  fun i => entry mean x wl wr brow (i 0) (i 1)

/-- The layer followed by the clamp below at zero. -/
def convRelu {M K N : ℕ} (mean x : FVec Ideal ⟨2, ![M, K]⟩ .f32) (wl wr : FVec Ideal ⟨2, ![K, N]⟩ .f32)
    (brow : FVec Ideal ⟨2, ![1, N]⟩ .f32) : FVec Ideal ⟨2, ![M, N]⟩ .f32 :=
  fun i => max (entry mean x wl wr brow (i 0) (i 1)) (Ideal.ofBits .f32 0x00000000#32)

theorem conv_apply {M K N : ℕ} (mean x : FVec Ideal ⟨2, ![M, K]⟩ .f32) (wl wr : FVec Ideal ⟨2, ![K, N]⟩ .f32)
    (brow : FVec Ideal ⟨2, ![1, N]⟩ .f32) (p : Fin M) (q : Fin N) :
    conv mean x wl wr brow (ix2 p q) = entry mean x wl wr brow p q := rfl

theorem convRelu_apply {M K N : ℕ} (mean x : FVec Ideal ⟨2, ![M, K]⟩ .f32) (wl wr : FVec Ideal ⟨2, ![K, N]⟩ .f32)
    (brow : FVec Ideal ⟨2, ![1, N]⟩ .f32) (p : Fin M) (q : Fin N) :
    convRelu mean x wl wr brow (ix2 p q) = max (entry mean x wl wr brow p q) (Ideal.ofBits .f32 0x00000000#32) := rfl

/-- An entry depends on row p of `mean` and of `x` only: a block of rows gives the entry the whole arrays give at
    the row the block's row p' sits at. -/
theorem entry_congr {M M' K N : ℕ} (mean x : FVec Ideal ⟨2, ![M, K]⟩ .f32) (mean' x' : FVec Ideal ⟨2, ![M', K]⟩ .f32)
    (wl wr : FVec Ideal ⟨2, ![K, N]⟩ .f32) (brow : FVec Ideal ⟨2, ![1, N]⟩ .f32) (p : Fin M) (p' : Fin M') (q : Fin N)
    (hm : ∀ k : Fin K, mean (ix2 p k) = mean' (ix2 p' k)) (hx : ∀ k : Fin K, x (ix2 p k) = x' (ix2 p' k)) :
    entry mean x wl wr brow p q = entry mean' x' wl wr brow p' q := by
  unfold entry
  have e1 : (∑ k : Fin K, mean (ix2 p k) * wl (ix2 k q)) = ∑ k : Fin K, mean' (ix2 p' k) * wl (ix2 k q) :=
    Finset.sum_congr rfl fun k _ => by rw [hm k]
  have e2 : (∑ k : Fin K, x (ix2 p k) * wr (ix2 k q)) = ∑ k : Fin K, x' (ix2 p' k) * wr (ix2 k q) :=
    Finset.sum_congr rfl fun k _ => by rw [hx k]
  rw [e1, e2]

/-- A matrix product into a zero accumulator read at (p, q), whatever formats the operands are held in (over the
    extended reals a change of format changes nothing). -/
theorem matmul_at {R K N : ℕ} {φ₁ φ₂ : FTy} (d : DotDims ⟨2, ![R, K]⟩ ⟨2, ![K, N]⟩ ⟨2, ![R, N]⟩) (hd : RowsByCols d)
    (a : FVec Ideal ⟨2, ![R, K]⟩ φ₁) (w : FVec Ideal ⟨2, ![K, N]⟩ φ₂) (p : Fin R) (q : Fin N) :
    matmul d none a w (constant (F := Ideal) ⟨2, ![R, N]⟩ .f32 0x00000000#32) (ix2 p q) = ∑ k : Fin K, a (ix2 p k) * w (ix2 k q) :=
  Cert.Dense.matmul_rows d hd.rank hd.size hd.lhs0 hd.lhs1 hd.rhs0 hd.rhs1 a w p q

/-- The body's arithmetic at (p, q) of a block: the two products into zero accumulators added, then the bias row
    repeated over the rows added. -/
theorem body_entry {R K N : ℕ} {φ₁ φ₂ : FTy} (d : DotDims ⟨2, ![R, K]⟩ ⟨2, ![K, N]⟩ ⟨2, ![R, N]⟩) (hd : RowsByCols d)
    (a c : FVec Ideal ⟨2, ![R, K]⟩ φ₁) (wl wr : FVec Ideal ⟨2, ![K, N]⟩ φ₂) (brow : FVec Ideal ⟨2, ![1, N]⟩ .f32)
    (hb : (⟨2, ![1, N]⟩ : Shape).Broadcasts ⟨2, ![R, N]⟩) (p : Fin R) (q : Fin N) :
    addf (addf (matmul d none a wl (constant (F := Ideal) ⟨2, ![R, N]⟩ .f32 0x00000000#32))
        (matmul d none c wr (constant (F := Ideal) ⟨2, ![R, N]⟩ .f32 0x00000000#32)))
      (broadcastTo ⟨2, ![R, N]⟩ brow hb) (ix2 p q)
    = entry a c wl wr brow p q := by
  rw [addf_apply, addf_apply, matmul_at d hd, matmul_at d hd, broadcastTo_1b_ab_apply]
  rfl

/-- The same followed by the maximum with the zero scalar spread over the block. -/
theorem body_entry_relu {R K N : ℕ} {φ₁ φ₂ : FTy} (d : DotDims ⟨2, ![R, K]⟩ ⟨2, ![K, N]⟩ ⟨2, ![R, N]⟩) (hd : RowsByCols d)
    (a c : FVec Ideal ⟨2, ![R, K]⟩ φ₁) (wl wr : FVec Ideal ⟨2, ![K, N]⟩ φ₂) (brow : FVec Ideal ⟨2, ![1, N]⟩ .f32)
    (hb : (⟨2, ![1, N]⟩ : Shape).Broadcasts ⟨2, ![R, N]⟩) (p : Fin R) (q : Fin N) :
    maximumf (addf (addf (matmul d none a wl (constant (F := Ideal) ⟨2, ![R, N]⟩ .f32 0x00000000#32))
        (matmul d none c wr (constant (F := Ideal) ⟨2, ![R, N]⟩ .f32 0x00000000#32)))
      (broadcastTo ⟨2, ![R, N]⟩ brow hb)) (broadcast ⟨2, ![R, N]⟩ (Scalar.ofBits (F := Ideal) .f32 0x00000000#32)) (ix2 p q)
    = max (entry a c wl wr brow p q) (Ideal.ofBits .f32 0x00000000#32) := by
  rw [maximumf_apply, broadcast_apply, body_entry d hd]
  rfl

/-- The host's spelling of the layer — first product plus the bias (placed along axis 1 of a row and repeated down
    the rows), then plus the second product — is the layer with the bias vector viewed as a [1, N] row:
    (A + b) + B = (A + B) + b on the extended reals. -/
theorem host_conv {M K N : ℕ} (d : DotDims ⟨2, ![M, K]⟩ ⟨2, ![K, N]⟩ ⟨2, ![M, N]⟩) (hd : RowsByCols d)
    (mean x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (addf (Host.dotGeneral (F := Ideal) d none mean wl)
        (broadcastInDim ⟨2, ![M, N]⟩ ![0, 1] h2 (broadcastInDim ⟨2, ![1, N]⟩ ![1] h1 b)))
      (Host.dotGeneral (F := Ideal) d none x wr)
    = conv mean x wl wr (shapeCast ⟨2, ![1, N]⟩ b hc) := by
  funext i
  obtain ⟨p, q, rfl⟩ : ∃ (p : Fin M) (q : Fin N), i = ix2 p q := ⟨i 0, i 1, eq_ix2 i⟩
  rw [addf_apply, addf_apply,
    Cert.HostDense.dotGeneral_rows d hd.rank hd.size hd.lhs0 hd.lhs1 hd.rhs0 hd.rhs1,
    Cert.HostDense.dotGeneral_rows d hd.rank hd.size hd.lhs0 hd.lhs1 hd.rhs0 hd.rhs1,
    Cert.HostDense.rowOfVector_apply, conv_apply]
  unfold entry
  rw [shapeCast_a_1a_apply]
  exact add_right_comm _ _ _

/-- The host's layer followed by its maximum with the zero constant spread over the array. -/
theorem host_convRelu {M K N : ℕ} (d : DotDims ⟨2, ![M, K]⟩ ⟨2, ![K, N]⟩ ⟨2, ![M, N]⟩) (hd : RowsByCols d)
    (mean x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (addf (Host.dotGeneral (F := Ideal) d none mean wl)
        (broadcastInDim ⟨2, ![M, N]⟩ ![0, 1] h2 (broadcastInDim ⟨2, ![1, N]⟩ ![1] h1 b)))
      (Host.dotGeneral (F := Ideal) d none x wr))
      (broadcastInDim ⟨2, ![M, N]⟩ ![] h0 (constant (F := Ideal) ⟨0, ![]⟩ .f32 0x00000000#32))
    = convRelu mean x wl wr (shapeCast ⟨2, ![1, N]⟩ b hc) := by
  funext i
  rw [Cert.HostDense.maxZero_apply, host_conv d hd mean x wl wr b h1 h2 hc]
  rfl

end Cert.Sage

end
-- ==== Proof.Spec.lean ====
/-
  The network in the host's own operations, as pure functions of the argument arrays, over the extended reals.
  From the edge list [2, E]: row 0 holds the source node of each edge, row 1 its destination. The inverse in-degree of
  a node is 1 / max(deg, 1) where deg > 0 and 0 elsewhere, deg the number of edges that end in the node. The
  neighbourhood mean of a feature array gathers the source rows (a negative index wraps once), adds each into its
  destination row and scales every row by the node's inverse in-degree. A layer is mean · Wl + bias + x · Wr; the
  first layer is clamped below at zero. The three results are the last layer's output (twice) and the second layer's.
  Both programs compute the index work and the means with these very operations, so they stay unopened here; the
  one place the programs differ, the order of the layer's two additions, is read index by index.
-/
import proofs.«173614_j12687333392406_1_alg».proof.ReferenceIdeal
import proofs.«173614_j12687333392406_1_alg».proof.Proof.Gen.ReferenceIdeal
import proofs.«173614_j12687333392406_1_alg».proof.Proof.LibSage

noncomputable section

namespace Cert.Spec

open Idealize.ShloMosaic Idealize.ShloMosaic.ValueIdx Cert.ReferenceIdeal

open Cert.ReferenceIdeal.Facts₀

/-- Row 0 of the edge list: the source node of each edge. -/
def src (ei : Vec Ideal S2x800000 .i32) : Vec Ideal S800000 .i32 :=
  shapeCast _ (extractStridedSlice S1x800000 ![0, 0] ei slices_S2x800000_S1x800000_0_0) shapeCasts_S1x800000_S800000

/-- Row 1 of the edge list: the destination node of each edge. -/
def dst (ei : Vec Ideal S2x800000 .i32) : Vec Ideal S800000 .i32 :=
  shapeCast _ (extractStridedSlice S1x800000 ![1, 0] ei slices_S2x800000_S1x800000_1_0) shapeCasts_S1x800000_S800000

/-- The in-degree of every node: ones added at the destinations. -/
def degree (d : Vec Ideal S800000 .i32) : FVec Ideal S50000 .f32 :=
  Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 d) (broadcastInDim S800000 ![] bcast_S_S800000 (constant (F := Ideal) S_ .f32 0x3F800000#32))

/-- 1 / max(deg, 1) where deg > 0, and 0 elsewhere. -/
def invDegree (d : Vec Ideal S800000 .i32) : FVec Ideal S50000 .f32 :=
  select (cmpf .ogt (degree d) (broadcastInDim S50000 ![] bcast_S_S50000 (constant (F := Ideal) S_ .f32 0x00000000#32))) (Host.divf (F := Ideal) (broadcastInDim S50000 ![] bcast_S_S50000 (constant (F := Ideal) S_ .f32 0x3F800000#32)) (maximumf (degree d) (broadcastInDim S50000 ![] bcast_S_S50000 (constant (F := Ideal) S_ .f32 0x3F800000#32)))) (broadcastInDim S50000 ![] bcast_S_S50000 (id (constant (F := Ideal) S_ .f32 0x00000000#32)))

/-- The neighbourhood mean of `feat`: source rows gathered (a negative index wrapped once), added into their
    destination rows, every row scaled by its node's inverse in-degree. -/
def mean (feat : FVec Ideal S50000x128 .f32) (s d : Vec Ideal S800000 .i32) (inv : FVec Ideal S50000 .f32) : FVec Ideal S50000x128 .f32 :=
  mulf (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 d) (Host.gather gather_S50000x128_S800000x1_S800000x128_1_0_n_n_0_1_1128 feat (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 inv))

/-- A layer into 128 features, in the host's order of additions. -/
def layer128 (mn x : FVec Ideal S50000x128 .f32) (wl : FVec Ideal S128x128 .f32) (b : FVec Ideal S128 .f32) (wr : FVec Ideal S128x128 .f32) : FVec Ideal S50000x128 .f32 :=
  addf (addf (Host.dotGeneral (F := Ideal) dot_S50000x128_S128x128_S50000x128_1_0_0_1_n_n none mn wl) (broadcastInDim S50000x128 ![0, 1] bcast_S1x128_S50000x128_0_1 (broadcastInDim S1x128 ![1] bcast_S128_S1x128_1 b))) (Host.dotGeneral (F := Ideal) dot_S50000x128_S128x128_S50000x128_1_0_0_1_n_n none x wr)

/-- A layer into 4 features, in the host's order of additions. -/
def layer4 (mn x : FVec Ideal S50000x128 .f32) (wl : FVec Ideal S128x4 .f32) (b : FVec Ideal S4 .f32) (wr : FVec Ideal S128x4 .f32) : FVec Ideal S50000x4 .f32 :=
  addf (addf (Host.dotGeneral (F := Ideal) dot_S50000x128_S128x4_S50000x4_1_0_0_1_n_n none mn wl) (broadcastInDim S50000x4 ![0, 1] bcast_S1x4_S50000x4_0_1 (broadcastInDim S1x4 ![1] bcast_S4_S1x4_1 b))) (Host.dotGeneral (F := Ideal) dot_S50000x128_S128x4_S50000x4_1_0_0_1_n_n none x wr)

/-- The clamp below at zero. -/
def relu (h : FVec Ideal S50000x128 .f32) : FVec Ideal S50000x128 .f32 :=
  maximumf h (broadcastInDim S50000x128 ![] bcast_S_S50000x128 (constant (F := Ideal) S_ .f32 0x00000000#32))

/-- The first layer's output. -/
def hidden1 (x : FVec Ideal S50000x128 .f32) (ei : Vec Ideal S2x800000 .i32) (wl0 : FVec Ideal S128x128 .f32) (b0 : FVec Ideal S128 .f32) (wr0 : FVec Ideal S128x128 .f32) : FVec Ideal S50000x128 .f32 :=
  relu (layer128 (mean x (src ei) (dst ei) (invDegree (dst ei))) x wl0 b0 wr0)

/-- The second layer's output, from the first layer's. -/
def hidden2 (h1 : FVec Ideal S50000x128 .f32) (ei : Vec Ideal S2x800000 .i32) (wl1 : FVec Ideal S128x128 .f32) (b1 : FVec Ideal S128 .f32) (wr1 : FVec Ideal S128x128 .f32) : FVec Ideal S50000x128 .f32 :=
  layer128 (mean h1 (src ei) (dst ei) (invDegree (dst ei))) h1 wl1 b1 wr1

/-- The last layer's output, from the second layer's. -/
def logits (h2 : FVec Ideal S50000x128 .f32) (ei : Vec Ideal S2x800000 .i32) (wl2 : FVec Ideal S128x4 .f32) (b2 : FVec Ideal S4 .f32) (wr2 : FVec Ideal S128x4 .f32) : FVec Ideal S50000x4 .f32 :=
  layer4 (mean h2 (src ei) (dst ei) (invDegree (dst ei))) h2 wl2 b2 wr2

/-! ## The host's two dimension records contract axis 1 of the left operand with axis 0 of the right one -/

theorem rows128 : Cert.Sage.RowsByCols dot_S50000x128_S128x128_S50000x128_1_0_0_1_n_n where
  rank := rfl
  size := rfl
  lhs0 := fun i q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  lhs1 := fun i q => dot_S50000x128_S128x128_S50000x128_1_0_0_1_n_n.lhsIdx_val_of_single rfl i q
  rhs0 := fun i q => dot_S50000x128_S128x128_S50000x128_1_0_0_1_n_n.rhsIdx_val_of_single rfl i q
  rhs1 := fun i q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

theorem rows4 : Cert.Sage.RowsByCols dot_S50000x128_S128x4_S50000x4_1_0_0_1_n_n where
  rank := rfl
  size := rfl
  lhs0 := fun i q => by
    unfold DotDims.lhsIdx
    rw [dif_neg (show ¬(0 : Fin S50000x128.rank) ∈ dot_S50000x128_S128x4_S50000x4_1_0_0_1_n_n.lhsBatch by decide), dif_pos (show (0 : Fin S50000x128.rank) ∈ dot_S50000x128_S128x4_S50000x4_1_0_0_1_n_n.lhsNonContracting by decide)]
    rfl
  lhs1 := fun i q => dot_S50000x128_S128x4_S50000x4_1_0_0_1_n_n.lhsIdx_val_of_single rfl i q
  rhs0 := fun i q => dot_S50000x128_S128x4_S50000x4_1_0_0_1_n_n.rhsIdx_val_of_single rfl i q
  rhs1 := fun i q => by
    unfold DotDims.rhsIdx
    rw [dif_neg (show ¬(1 : Fin S128x4.rank) ∈ dot_S50000x128_S128x4_S50000x4_1_0_0_1_n_n.rhsBatch by decide), dif_pos (show (1 : Fin S128x4.rank) ∈ dot_S50000x128_S128x4_S50000x4_1_0_0_1_n_n.rhsNonContracting by decide)]
    rfl

/-! ## The host's layers are the layer of `Sage`, the bias viewed as a row -/

theorem layer128_eq (mn x : FVec Ideal S50000x128 .f32) (wl : FVec Ideal S128x128 .f32) (b : FVec Ideal S128 .f32) (wr : FVec Ideal S128x128 .f32)
    (hc : S128.ShapeCasts S1x128) :
    layer128 mn x wl b wr = Cert.Sage.conv mn x wl wr (shapeCast S1x128 b hc) :=
  Cert.Sage.host_conv dot_S50000x128_S128x128_S50000x128_1_0_0_1_n_n rows128 mn x wl wr b bcast_S128_S1x128_1 bcast_S1x128_S50000x128_0_1 hc

theorem relu_layer128_eq (mn x : FVec Ideal S50000x128 .f32) (wl : FVec Ideal S128x128 .f32) (b : FVec Ideal S128 .f32) (wr : FVec Ideal S128x128 .f32)
    (hc : S128.ShapeCasts S1x128) :
    relu (layer128 mn x wl b wr) = Cert.Sage.convRelu mn x wl wr (shapeCast S1x128 b hc) :=
  Cert.Sage.host_convRelu dot_S50000x128_S128x128_S50000x128_1_0_0_1_n_n rows128 mn x wl wr b bcast_S128_S1x128_1 bcast_S1x128_S50000x128_0_1 hc bcast_S_S50000x128

theorem layer4_eq (mn x : FVec Ideal S50000x128 .f32) (wl : FVec Ideal S128x4 .f32) (b : FVec Ideal S4 .f32) (wr : FVec Ideal S128x4 .f32)
    (hc : S4.ShapeCasts S1x4) :
    layer4 mn x wl b wr = Cert.Sage.conv mn x wl wr (shapeCast S1x4 b hc) :=
  Cert.Sage.host_conv dot_S50000x128_S128x4_S50000x4_1_0_0_1_n_n rows4 mn x wl wr b bcast_S4_S1x4_1 bcast_S1x4_S50000x4_0_1 hc

end Cert.Spec

end
-- ==== Proof.LibTRef.lean ====
/-
  A called function's buffers hold values at the function's own types; an operation inside the call reads and writes a
  buffer through a transport along the equation between the buffer's type and the value's type. Carrying a value to the
  buffer's type and back gives the value again, so a chain of operations inside a call composes as if there were no
  transports.
-/
import Idealize.ShloMosaic.Lib.StableHlo

namespace Cert.TRefLemmas

open Idealize.ShloMosaic

/-- Contents carried to a buffer's type and back are unchanged. -/
theorem ofBuf_toBuf {sg : RefSig} {Vl : EltTy → Type} {T : BufTy} (x : StableHlo.TRef sg T) (v : T.Contents Vl) :
    x.ofBuf (x.toBuf v) = v := by
  unfold StableHlo.TRef.ofBuf StableHlo.TRef.toBuf
  simp

end Cert.TRefLemmas
-- ==== Proof.Region0.lean ====
/-
  Region 0 of the program: the layer's arithmetic on blocks of 5000 rows, ten blocks down the 50000 rows.
  A grid point t reads rows 5000·t … 5000·t + 4999 of the averaged neighbour features and of the node features, the
  whole of both matrices and the bias row, and writes rows 5000·t … of the result. Every entry of a layer depends on its
  own row of the two feature arrays only, so what a point writes back is its block of ONE function of the whole arrays,
  and the ten blocks tile the result: after the region the result array is that function of the arrays the region
  was entered with. Stated for any contents `V` at the region's entry.
-/
import proofs.«173614_j12687333392406_1_alg».proof.Proof.Gen.KernelIdeal.Frame
import proofs.«173614_j12687333392406_1_alg».proof.Proof.LibSage
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's dimension record contracts axis 1 of the left operand with axis 0 of the right one. -/
theorem rows : Cert.Sage.RowsByCols dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The body's stored value at (p, q) of a block is the layer's entry on the loaded blocks, clamped below at zero. -/
theorem pay_apply (v0 v3 : Vec Ideal S5000x128 .f32) (v5 v7 : Vec Ideal S128x128 .f32) (v12 : Vec Ideal S1x128 .f32) (p : Fin 5000) (q : Fin 128) :
    k0_pay1 (F := Ideal) v0 v3 v5 v7 v12 (ix2 p q) = max (Cert.Sage.entry v0 v3 v5 v7 v12 p q) (Ideal.ofBits .f32 0x00000000#32) := by
  unfold k0_pay1
  simp only [shapeCast_self]
  exact Cert.Sage.body_entry_relu dot_S5000x128_S128x128_S5000x128_1_0_0_1_n_n rows _ _ _ _ v12 _ p q

/-- The layer as a whole array, clamped. -/
abbrev G (mn x : FVec Ideal S50000x128 .f32) (wl wr : FVec Ideal S128x128 .f32) (b : FVec Ideal S1x128 .f32) : FVec Ideal S50000x128 .f32 :=
  Cert.Sage.convRelu mn x wl wr b

/-- One point, over variables: if the two loaded feature blocks are rows 5000·b … of the whole arrays and the other
    three blocks are the whole matrices and bias row, the stored value at y is the layer at row 5000·b + y₀. -/
theorem point (x0 x1 : Vec Ideal S5000x128 .f32) (x2 x3 : Vec Ideal S128x128 .f32) (x4 : Vec Ideal S1x128 .f32)
    (MN X : FVec Ideal S50000x128 .f32) (WL WR : FVec Ideal S128x128 .f32) (B : FVec Ideal S1x128 .f32)
    (b : ℕ) (hb : b ≤ 9)
    (h0 : ∀ (p : Fin 5000) (k : Fin 128), x0 (ix2 p k) = MN (ix2 (⟨b * 5000 + p.val, by omega⟩ : Fin 50000) k))
    (h1 : ∀ (p : Fin 5000) (k : Fin 128), x1 (ix2 p k) = X (ix2 (⟨b * 5000 + p.val, by omega⟩ : Fin 50000) k))
    (h2 : x2 = WL) (h3 : x3 = WR) (h4 : x4 = B) (p : Fin 5000) (q : Fin 128) :
    k0_pay1 (F := Ideal) x0 x1 x2 x3 x4 (ix2 p q) = G MN X WL WR B (ix2 (⟨b * 5000 + p.val, by omega⟩ : Fin 50000) q) := by
  subst h2 h3 h4
  rw [pay_apply]
  show _ = max (Cert.Sage.entry MN X x2 x3 x4 _ q) _
  rw [Cert.Sage.entry_congr x0 x1 MN X x2 x3 x4 p (⟨b * 5000 + p.val, by omega⟩ : Fin 50000) q (h0 p) (h1 p)]

/-- The printed index maps, decided over the ten points: the two feature windows move with the output window down
    the rows; the matrices and the bias row stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every block of rows is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point t writes back is block t of the layer of the arrays as the region finds them. -/
theorem flushed_eq (c : Dev nD) (t : Fin cfg0.N) :
    (dat0 V c).flushed 5 t = ((cfg0.win 5).blk t).view.read (Elt Ideal)
      (G (V c main_v27) (V c main_arg0) (V c main_arg2) (V c main_arg4) (V c main_v28)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 3 t) (iblk0 V c 4 t) (ix2 p q)
    = G (V c main_v27) (V c main_arg0) (V c main_arg2) (V c main_arg4) (V c main_v28) (((cfg0.win 5).blk t).view.emb (ix2 p q))
  refine (point (iblk0 V c 0 t) (iblk0 V c 1 t) (iblk0 V c 2 t) (iblk0 V c 3 t) (iblk0 V c 4 t)
    (V c main_v27) (V c main_arg0) (V c main_arg2) (V c main_arg4) (V c main_v28) (win0_5.index t (0 : Fin 2)) e10 ?_ ?_ ?_ ?_ ?_ p q).trans ?_
  · intro p k
    show V c main_v27 (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro p k
    show V c main_arg0 (((cfg0.win 1).blk t).view.emb (ix2 p k)) = _
    refine congrArg _ (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · funext z
    show V c main_arg2 (((cfg0.win 2).blk t).view.emb z) = V c main_arg2 z
    refine congrArg _ (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · funext z
    show V c main_arg4 (((cfg0.win 3).blk t).view.emb z) = V c main_arg4 z
    refine congrArg _ (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  · funext z
    show V c main_v28 (((cfg0.win 4).blk t).view.emb z) = V c main_v28 z
    refine congrArg _ (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  · refine congrArg _ (funext fun a => Fin.ext ?_)
    match a with
    | ⟨0, _⟩ => show win0_5.index t (0 : Fin 2) * 5000 + p.val = win0_5.index t (0 : Fin 2) * 5000 + 1 * p.val; omega
    | ⟨1, _⟩ => show q.val = win0_5.index t (1 : Fin 2) * 128 + 1 * q.val; omega

/-- An index of the result is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The ten blocks of rows tile the result: row r is in the block of point r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region: the layer of the arrays the region was entered with. -/
theorem final (c : Dev nD) :
    (dat0 V c).arrAt 5 cfg0.N = G (V c main_v27) (V c main_arg0) (V c main_arg2) (V c main_arg4) (V c main_v28) :=
  (dat0 V c).arrAt_eq_of_cover 5 _ (fun t _ => flushed_eq V c t) cover

end Cert.KernelIdeal.Region0

end
-- ==== Proof.Region1.lean ====
/-
  Region 1 of the program: the layer's arithmetic on blocks of 5000 rows, ten blocks down the 50000 rows.
  A grid point t reads rows 5000·t … 5000·t + 4999 of the averaged neighbour features and of the node features, the
  whole of both matrices and the bias row, and writes rows 5000·t … of the result. Every entry of a layer depends on its
  own row of the two feature arrays only, so what a point writes back is its block of ONE function of the whole arrays,
  and the ten blocks tile the result: after the region the result array is that function of the arrays the region
  was entered with. Stated for any contents `V` at the region's entry.
-/
import proofs.«173614_j12687333392406_1_alg».proof.Proof.Gen.KernelIdeal.Frame
import proofs.«173614_j12687333392406_1_alg».proof.Proof.LibSage
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's dimension record contracts axis 1 of the left operand with axis 0 of the right one. -/
theorem rows : Cert.Sage.RowsByCols dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The body's stored value at (p, q) of a block is the layer's entry on the loaded blocks. -/
theorem pay_apply (v0 v3 : Vec Ideal S5000x128 .f32) (v5 v7 : Vec Ideal S128x128 .f32) (v12 : Vec Ideal S1x128 .f32) (p : Fin 5000) (q : Fin 128) :
    k1_pay1 (F := Ideal) v0 v3 v5 v7 v12 (ix2 p q) = Cert.Sage.entry v0 v3 v5 v7 v12 p q := by
  unfold k1_pay1
  simp only [shapeCast_self]
  exact Cert.Sage.body_entry dot_S5000x128_S128x128_S5000x128_1_0_0_1_n_n rows _ _ _ _ v12 _ p q

/-- The layer as a whole array. -/
abbrev G (mn x : FVec Ideal S50000x128 .f32) (wl wr : FVec Ideal S128x128 .f32) (b : FVec Ideal S1x128 .f32) : FVec Ideal S50000x128 .f32 :=
  Cert.Sage.conv mn x wl wr b

/-- One point, over variables: if the two loaded feature blocks are rows 5000·b … of the whole arrays and the other
    three blocks are the whole matrices and bias row, the stored value at y is the layer at row 5000·b + y₀. -/
theorem point (x0 x1 : Vec Ideal S5000x128 .f32) (x2 x3 : Vec Ideal S128x128 .f32) (x4 : Vec Ideal S1x128 .f32)
    (MN X : FVec Ideal S50000x128 .f32) (WL WR : FVec Ideal S128x128 .f32) (B : FVec Ideal S1x128 .f32)
    (b : ℕ) (hb : b ≤ 9)
    (h0 : ∀ (p : Fin 5000) (k : Fin 128), x0 (ix2 p k) = MN (ix2 (⟨b * 5000 + p.val, by omega⟩ : Fin 50000) k))
    (h1 : ∀ (p : Fin 5000) (k : Fin 128), x1 (ix2 p k) = X (ix2 (⟨b * 5000 + p.val, by omega⟩ : Fin 50000) k))
    (h2 : x2 = WL) (h3 : x3 = WR) (h4 : x4 = B) (p : Fin 5000) (q : Fin 128) :
    k1_pay1 (F := Ideal) x0 x1 x2 x3 x4 (ix2 p q) = G MN X WL WR B (ix2 (⟨b * 5000 + p.val, by omega⟩ : Fin 50000) q) := by
  subst h2 h3 h4
  rw [pay_apply]
  show _ = Cert.Sage.entry MN X x2 x3 x4 _ q
  rw [Cert.Sage.entry_congr x0 x1 MN X x2 x3 x4 p (⟨b * 5000 + p.val, by omega⟩ : Fin 50000) q (h0 p) (h1 p)]

/-- The printed index maps, decided over the ten points: the two feature windows move with the output window down
    the rows; the matrices and the bias row stay at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every block of rows is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of the layer of the arrays as the region finds them. -/
theorem flushed_eq (c : Dev nD) (t : Fin cfg1.N) :
    (dat1 V c).flushed 5 t = ((cfg1.win 5).blk t).view.read (Elt Ideal)
      (G (V c main_v42) (V c main_v29) (V c main_arg5) (V c main_arg7) (V c main_v43)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = G (V c main_v42) (V c main_v29) (V c main_arg5) (V c main_arg7) (V c main_v43) (((cfg1.win 5).blk t).view.emb (ix2 p q))
  refine (point (iblk1 V c 0 t) (iblk1 V c 1 t) (iblk1 V c 2 t) (iblk1 V c 3 t) (iblk1 V c 4 t)
    (V c main_v42) (V c main_v29) (V c main_arg5) (V c main_arg7) (V c main_v43) (win1_5.index t (0 : Fin 2)) e10 ?_ ?_ ?_ ?_ ?_ p q).trans ?_
  · intro p k
    show V c main_v42 (((cfg1.win 0).blk t).view.emb (ix2 p k)) = _
    refine congrArg _ (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  · intro p k
    show V c main_v29 (((cfg1.win 1).blk t).view.emb (ix2 p k)) = _
    refine congrArg _ (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 128 + 1 * k.val = k.val; omega
  · funext z
    show V c main_arg5 (((cfg1.win 2).blk t).view.emb z) = V c main_arg5 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · funext z
    show V c main_arg7 (((cfg1.win 3).blk t).view.emb z) = V c main_arg7 z
    refine congrArg _ (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · funext z
    show V c main_v43 (((cfg1.win 4).blk t).view.emb z) = V c main_v43 z
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  · refine congrArg _ (funext fun a => Fin.ext ?_)
    match a with
    | ⟨0, _⟩ => show win1_5.index t (0 : Fin 2) * 5000 + p.val = win1_5.index t (0 : Fin 2) * 5000 + 1 * p.val; omega
    | ⟨1, _⟩ => show q.val = win1_5.index t (1 : Fin 2) * 128 + 1 * q.val; omega

/-- An index of the result is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- The ten blocks of rows tile the result: row r is in the block of point r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region: the layer of the arrays the region was entered with. -/
theorem final (c : Dev nD) :
    (dat1 V c).arrAt 5 cfg1.N = G (V c main_v42) (V c main_v29) (V c main_arg5) (V c main_arg7) (V c main_v43) :=
  (dat1 V c).arrAt_eq_of_cover 5 _ (fun t _ => flushed_eq V c t) cover

end Cert.KernelIdeal.Region1

end
-- ==== Proof.Region2.lean ====
/-
  Region 2 of the program: the layer's arithmetic on blocks of 5000 rows, ten blocks down the 50000 rows.
  A grid point t reads rows 5000·t … 5000·t + 4999 of the averaged neighbour features and of the node features, the
  whole of both matrices and the bias row, and writes rows 5000·t … of the result. Every entry of a layer depends on its
  own row of the two feature arrays only, so what a point writes back is its block of ONE function of the whole arrays,
  and the ten blocks tile the result: after the region the result array is that function of the arrays the region
  was entered with. Stated for any contents `V` at the region's entry.
-/
import proofs.«173614_j12687333392406_1_alg».proof.Proof.Gen.KernelIdeal.Frame
import proofs.«173614_j12687333392406_1_alg».proof.Proof.LibSage
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's dimension record contracts axis 1 of the left operand with axis 0 of the right one. -/
theorem rows : Cert.Sage.RowsByCols dot_S5000x128_S128x4_S5000x4_1_0_0_1_n_n where
  rank := rfl
  size := rfl
  lhs0 := fun i q => by
    unfold DotDims.lhsIdx
    rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
    rfl
  lhs1 := fun i q => dot_S5000x128_S128x4_S5000x4_1_0_0_1_n_n.lhsIdx_val_of_single rfl i q
  rhs0 := fun i q => dot_S5000x128_S128x4_S5000x4_1_0_0_1_n_n.rhsIdx_val_of_single rfl i q
  rhs1 := fun i q => by
    unfold DotDims.rhsIdx
    rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
    rfl

/-- The body's stored value at (p, q) of a block is the layer's entry on the loaded blocks. -/
theorem pay_apply (v0 v3 : Vec Ideal S5000x128 .f32) (v5 v7 : Vec Ideal S128x4 .f32) (v12 : Vec Ideal S1x4 .f32) (p : Fin 5000) (q : Fin 4) :
    k2_pay1 (F := Ideal) v0 v3 v5 v7 v12 (ix2 p q) = Cert.Sage.entry v0 v3 v5 v7 v12 p q := by
  unfold k2_pay1
  simp only [shapeCast_self]
  exact Cert.Sage.body_entry dot_S5000x128_S128x4_S5000x4_1_0_0_1_n_n rows _ _ _ _ v12 _ p q

/-- The layer as a whole array. -/
abbrev G (mn x : FVec Ideal S50000x128 .f32) (wl wr : FVec Ideal S128x4 .f32) (b : FVec Ideal S1x4 .f32) : FVec Ideal S50000x4 .f32 :=
  Cert.Sage.conv mn x wl wr b

/-- One point, over variables: if the two loaded feature blocks are rows 5000·b … of the whole arrays and the other
    three blocks are the whole matrices and bias row, the stored value at y is the layer at row 5000·b + y₀. -/
theorem point (x0 x1 : Vec Ideal S5000x128 .f32) (x2 x3 : Vec Ideal S128x4 .f32) (x4 : Vec Ideal S1x4 .f32)
    (MN X : FVec Ideal S50000x128 .f32) (WL WR : FVec Ideal S128x4 .f32) (B : FVec Ideal S1x4 .f32)
    (b : ℕ) (hb : b ≤ 9)
    (h0 : ∀ (p : Fin 5000) (k : Fin 128), x0 (ix2 p k) = MN (ix2 (⟨b * 5000 + p.val, by omega⟩ : Fin 50000) k))
    (h1 : ∀ (p : Fin 5000) (k : Fin 128), x1 (ix2 p k) = X (ix2 (⟨b * 5000 + p.val, by omega⟩ : Fin 50000) k))
    (h2 : x2 = WL) (h3 : x3 = WR) (h4 : x4 = B) (p : Fin 5000) (q : Fin 4) :
    k2_pay1 (F := Ideal) x0 x1 x2 x3 x4 (ix2 p q) = G MN X WL WR B (ix2 (⟨b * 5000 + p.val, by omega⟩ : Fin 50000) q) := by
  subst h2 h3 h4
  rw [pay_apply]
  show _ = Cert.Sage.entry MN X x2 x3 x4 _ q
  rw [Cert.Sage.entry_congr x0 x1 MN X x2 x3 x4 p (⟨b * 5000 + p.val, by omega⟩ : Fin 50000) q (h0 p) (h1 p)]

/-- The printed index maps, decided over the ten points: the two feature windows move with the output window down
    the rows; the matrices and the bias row stay at block (0, 0). -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every block of rows is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- What point t writes back is block t of the layer of the arrays as the region finds them. -/
theorem flushed_eq (c : Dev nD) (t : Fin cfg2.N) :
    (dat2 V c).flushed 5 t = ((cfg2.win 5).blk t).view.read (Elt Ideal)
      (G (V c main_v57) (V c main_v44) (V c main_arg8) (V c main_arg10) (V c main_v58)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x4) hz, View.ld_unit_zero (S := S1x4) hz]
  obtain ⟨e0, e1, e2, e3, e4, e5, e6, e7, e8, e9, e10, e11⟩ := idx_facts t
  funext y
  obtain ⟨p, q, rfl⟩ : ∃ (p : Fin 5000) (q : Fin 4), y = ix2 p q := ⟨y 0, y 1, eq_ix2 y⟩
  show k2_pay1 (iblk2 V c 0 t) (iblk2 V c 1 t) (iblk2 V c 2 t) (iblk2 V c 3 t) (iblk2 V c 4 t) (ix2 p q)
    = G (V c main_v57) (V c main_v44) (V c main_arg8) (V c main_arg10) (V c main_v58) (((cfg2.win 5).blk t).view.emb (ix2 p q))
  refine (point (iblk2 V c 0 t) (iblk2 V c 1 t) (iblk2 V c 2 t) (iblk2 V c 3 t) (iblk2 V c 4 t)
    (V c main_v57) (V c main_v44) (V c main_arg8) (V c main_arg10) (V c main_v58) (win2_5.index t (0 : Fin 2)) e10 ?_ ?_ ?_ ?_ ?_ p q).trans ?_
  · intro p k
    show V c main_v57 (((cfg2.win 0).blk t).view.emb (ix2 p k)) = _
    refine congrArg _ (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 128 + 1 * k.val = k.val; omega
  · intro p k
    show V c main_v44 (((cfg2.win 1).blk t).view.emb (ix2 p k)) = _
    refine congrArg _ (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 128 + 1 * k.val = k.val; omega
  · funext z
    show V c main_arg8 (((cfg2.win 2).blk t).view.emb z) = V c main_arg8 z
    refine congrArg _ (funext fun a => Fin.ext ?_)
    match a with
    | ⟨0, _⟩ => show win2_2.index t (0 : Fin 2) * 128 + 1 * (z 0).val = (z 0).val; omega
    | ⟨1, _⟩ => show win2_2.index t (1 : Fin 2) * 4 + 1 * (z 1).val = (z 1).val; omega
  · funext z
    show V c main_arg10 (((cfg2.win 3).blk t).view.emb z) = V c main_arg10 z
    refine congrArg _ (funext fun a => Fin.ext ?_)
    match a with
    | ⟨0, _⟩ => show win2_3.index t (0 : Fin 2) * 128 + 1 * (z 0).val = (z 0).val; omega
    | ⟨1, _⟩ => show win2_3.index t (1 : Fin 2) * 4 + 1 * (z 1).val = (z 1).val; omega
  · funext z
    show V c main_v58 (((cfg2.win 4).blk t).view.emb z) = V c main_v58 z
    refine congrArg _ (funext fun a => Fin.ext ?_)
    match a with
    | ⟨0, _⟩ => show win2_4.index t (0 : Fin 2) * 1 + 1 * (z 0).val = (z 0).val; omega
    | ⟨1, _⟩ => show win2_4.index t (1 : Fin 2) * 4 + 1 * (z 1).val = (z 1).val; omega
  · refine congrArg _ (funext fun a => Fin.ext ?_)
    match a with
    | ⟨0, _⟩ => show win2_5.index t (0 : Fin 2) * 5000 + p.val = win2_5.index t (0 : Fin 2) * 5000 + 1 * p.val; omega
    | ⟨1, _⟩ => show q.val = win2_5.index t (1 : Fin 2) * 4 + 1 * q.val; omega

/-- An index of the result is in point t's block iff each coordinate is in the block's range on its axis. -/
theorem mem_blk (t : Fin cfg2.N) (i : S50000x4.Idx) :
    i ∈ ((cfg2.win 5).blk t).view.set ↔ ∀ a : Fin 2, win2_5.index t a * S5000x4.size a ≤ (i a).val ∧ (i a).val < win2_5.index t a * S5000x4.size a + S5000x4.size a := by
  show i ∈ ((View.whole main_v59).slice (win2_5.rect t)).set ↔ _
  rw [View.set_slice_whole, Rect.mem_set_unit]
  exact Iff.rfl

/-- The ten blocks of rows tile the result: row r is in the block of point r / 5000. -/
theorem cover (i : S50000x4.Idx) : ∃ t : Fin cfg2.N, (cfg2.win 5).flush t = true ∧ i ∈ ((cfg2.win 5).blk t).view.set := by
  have hi0 : (i 0).val < 50000 := (i 0).isLt
  have hi1 : (i 1).val < 4 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 4 ≤ (i 1).val ∧ (i 1).val < win2_5.index t (1 : Fin 2) * 4 + 4; omega

/-- The result array after the region: the layer of the arrays the region was entered with. -/
theorem final (c : Dev nD) :
    (dat2 V c).arrAt 5 cfg2.N = G (V c main_v57) (V c main_v44) (V c main_arg8) (V c main_arg10) (V c main_v58) :=
  (dat2 V c).arrAt_eq_of_cover 5 _ (fun t _ => flushed_eq V c t) cover

end Cert.KernelIdeal.Region2

end
-- ==== Proof.Boundaries.lean ====
/-
  The contents of the buffers that matter at each boundary of the program's run, from the launch memory on.
  The run is: a stretch of host operations that cuts the edge list into its source and destination rows and computes
  every node's inverse in-degree; a stretch that averages the node features over each node's in-neighbours and views
  the first bias as a row; region 0 (the first layer, clamped at zero); a stretch that averages the first layer's output
  and views the second bias as a row; region 1 (the second layer); the same stretch once more for the second layer's
  output and the third bias; region 2 (the last layer). A stretch writes its own results and leaves every other buffer
  alone; a region writes its result array and leaves every buffer that is not one of its six arrays alone. Followed
  from the launch, the source and destination rows and the inverse in-degrees reach every later stretch unchanged, the
  arguments reach the region that reads them unchanged, and each region's result is the layer of what the stretch
  before it computed: the three layers of the network as the host's own operations state them.
-/
import proofs.«173614_j12687333392406_1_alg».proof.Proof.Gen.KernelIdeal.Frame
import proofs.«173614_j12687333392406_1_alg».proof.Proof.Spec
import proofs.«173614_j12687333392406_1_alg».proof.Proof.LibTRef
import proofs.«173614_j12687333392406_1_alg».proof.Proof.Region0
import proofs.«173614_j12687333392406_1_alg».proof.Proof.Region1
import proofs.«173614_j12687333392406_1_alg».proof.Proof.Region2
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen

/-! ## One stretch of host operations, from any contents `Wp` -/

section Stretches

variable (Wp : Valuation τ sig (Elt Ideal))

/-- The first stretch: the source row of the edge list. -/
theorem first_src : StableHlo.after (hostOps0 (F := Ideal)) Wp (Proc.devRef .tc main_v1) = Cert.Spec.src (Wp (Proc.devRef .tc main_arg1)) := by
  dsimp only [hostOps0]
  after_results
  rfl

/-- The first stretch: the destination row of the edge list. -/
theorem first_dst : StableHlo.after (hostOps0 (F := Ideal)) Wp (Proc.devRef .tc main_v3) = Cert.Spec.dst (Wp (Proc.devRef .tc main_arg1)) := by
  dsimp only [hostOps0]
  after_results
  rfl

/-- The first stretch: where the in-degree is positive. -/
theorem first_pos : StableHlo.after (hostOps0 (F := Ideal)) Wp (Proc.devRef .tc main_v9)
    = cmpf .ogt (Cert.Spec.degree (Cert.Spec.dst (Wp (Proc.devRef .tc main_arg1)))) (broadcastInDim Cert.ReferenceIdeal.S50000 ![] Cert.ReferenceIdeal.Facts₀.bcast_S_S50000 (constant (F := Ideal) Cert.ReferenceIdeal.S_ .f32 0x00000000#32)) := by
  dsimp only [hostOps0]
  after_results
  rfl

/-- The first stretch: one over the in-degree clamped below at one. -/
theorem first_quot : StableHlo.after (hostOps0 (F := Ideal)) Wp (Proc.devRef .tc main_v13)
    = Host.divf (F := Ideal) (broadcastInDim Cert.ReferenceIdeal.S50000 ![] Cert.ReferenceIdeal.Facts₀.bcast_S_S50000 (constant (F := Ideal) Cert.ReferenceIdeal.S_ .f32 0x3F800000#32)) (maximumf (Cert.Spec.degree (Cert.Spec.dst (Wp (Proc.devRef .tc main_arg1)))) (broadcastInDim Cert.ReferenceIdeal.S50000 ![] Cert.ReferenceIdeal.Facts₀.bcast_S_S50000 (constant (F := Ideal) Cert.ReferenceIdeal.S_ .f32 0x3F800000#32))) := by
  dsimp only [hostOps0]
  after_results
  rfl

/-- The first stretch: the zero scalar the selection falls back to. -/
theorem first_zero : StableHlo.after (hostOps0 (F := Ideal)) Wp (Proc.devRef .tc main_cst_4) = constant (F := Ideal) Cert.ReferenceIdeal.S_ .f32 0x00000000#32 := by
  dsimp only [hostOps0]
  after_results

/-- The selection: the quotient where the in-degree is positive, zero elsewhere. -/
theorem select_inv : StableHlo.after (hostOps0_1 (F := Ideal)) Wp (Proc.devRef .tc main_v14)
    = select (Wp (Proc.devRef .tc main_v9)) (Wp (Proc.devRef .tc main_v13)) (broadcastInDim Cert.ReferenceIdeal.S50000 ![] Cert.ReferenceIdeal.Facts₀.bcast_S_S50000 (id (Wp (Proc.devRef .tc main_cst_4)))) := by
  dsimp only [hostOps0_1]
  after_results
  simp only [Cert.TRefLemmas.ofBuf_toBuf]
  rfl

set_option maxHeartbeats 1000000 in
/-- The stretch before region 0: the mean of the node features over the in-neighbours. -/
theorem mean0 : StableHlo.after (hostOps0_2 (F := Ideal)) Wp (Proc.devRef .tc main_v27)
    = Cert.Spec.mean (Wp (Proc.devRef .tc main_arg0)) (Wp (Proc.devRef .tc main_v1)) (Wp (Proc.devRef .tc main_v3)) (Wp (Proc.devRef .tc main_v14)) := by
  dsimp only [hostOps0_2]
  after_results
  rfl

set_option maxHeartbeats 1000000 in
/-- The stretch before region 0: the first bias as a row. -/
theorem bias0 : StableHlo.after (hostOps0_2 (F := Ideal)) Wp (Proc.devRef .tc main_v28) = shapeCast S1x128 (Wp (Proc.devRef .tc main_arg3)) Facts₀.shapeCasts_S128_S1x128 := by
  dsimp only [hostOps0_2]
  after_results
  rfl

set_option maxHeartbeats 1000000 in
/-- The stretch before region 1: the mean of the first layer's output. -/
theorem mean1 : StableHlo.after (hostOps1 (F := Ideal)) Wp (Proc.devRef .tc main_v42)
    = Cert.Spec.mean (Wp (Proc.devRef .tc main_v29)) (Wp (Proc.devRef .tc main_v1)) (Wp (Proc.devRef .tc main_v3)) (Wp (Proc.devRef .tc main_v14)) := by
  dsimp only [hostOps1]
  after_results
  rfl

set_option maxHeartbeats 1000000 in
/-- The stretch before region 1: the second bias as a row. -/
theorem bias1 : StableHlo.after (hostOps1 (F := Ideal)) Wp (Proc.devRef .tc main_v43) = shapeCast S1x128 (Wp (Proc.devRef .tc main_arg6)) Facts₀.shapeCasts_S128_S1x128 := by
  dsimp only [hostOps1]
  after_results
  rfl

set_option maxHeartbeats 1000000 in
/-- The stretch before region 2: the mean of the second layer's output. -/
theorem mean2 : StableHlo.after (hostOps2 (F := Ideal)) Wp (Proc.devRef .tc main_v57)
    = Cert.Spec.mean (Wp (Proc.devRef .tc main_v44)) (Wp (Proc.devRef .tc main_v1)) (Wp (Proc.devRef .tc main_v3)) (Wp (Proc.devRef .tc main_v14)) := by
  dsimp only [hostOps2]
  after_results
  rfl

set_option maxHeartbeats 1000000 in
/-- The stretch before region 2: the third bias as a row. -/
theorem bias2 : StableHlo.after (hostOps2 (F := Ideal)) Wp (Proc.devRef .tc main_v58) = shapeCast S1x4 (Wp (Proc.devRef .tc main_arg9)) Facts₀.shapeCasts_S4_S1x4 := by
  dsimp only [hostOps2]
  after_results
  rfl

/-! ### What a stretch leaves alone -/

theorem keep_first (b : Ref sig .tc) (hb : b ∈ ([main_arg0, main_arg2, main_arg3, main_arg4, main_arg5, main_arg6, main_arg7, main_arg8, main_arg9, main_arg10] : List (Ref sig .tc))) :
    StableHlo.after (hostOps0 (F := Ideal)) Wp (Proc.devRef .tc b) = Wp (Proc.devRef .tc b) := by
  simp only [List.mem_cons, List.not_mem_nil, or_false] at hb
  rcases hb with rfl | rfl | rfl | rfl | rfl | rfl | rfl | rfl | rfl | rfl
  all_goals exact StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_select (b : Ref sig .tc) (hb : b ∈ ([main_v1, main_v3, main_arg0, main_arg2, main_arg3, main_arg4, main_arg5, main_arg6, main_arg7, main_arg8, main_arg9, main_arg10] : List (Ref sig .tc))) :
    StableHlo.after (hostOps0_1 (F := Ideal)) Wp (Proc.devRef .tc b) = Wp (Proc.devRef .tc b) := by
  simp only [List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_mean0 (b : Ref sig .tc) (hb : b ∈ ([main_v1, main_v3, main_v14, main_arg0, main_arg2, main_arg4, main_arg5, main_arg6, main_arg7, main_arg8, main_arg9, main_arg10] : List (Ref sig .tc))) :
    StableHlo.after (hostOps0_2 (F := Ideal)) Wp (Proc.devRef .tc b) = Wp (Proc.devRef .tc b) := by
  simp only [List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_mean1 (b : Ref sig .tc) (hb : b ∈ ([main_v1, main_v3, main_v14, main_v29, main_arg5, main_arg7, main_arg8, main_arg9, main_arg10] : List (Ref sig .tc))) :
    StableHlo.after (hostOps1 (F := Ideal)) Wp (Proc.devRef .tc b) = Wp (Proc.devRef .tc b) := by
  simp only [List.mem_cons, List.not_mem_nil, or_false] at hb
  rcases hb with rfl | rfl | rfl | rfl | rfl | rfl | rfl | rfl | rfl
  all_goals exact StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_mean2 (b : Ref sig .tc) (hb : b ∈ ([main_v44, main_arg8, main_arg10] : List (Ref sig .tc))) :
    StableHlo.after (hostOps2 (F := Ideal)) Wp (Proc.devRef .tc b) = Wp (Proc.devRef .tc b) := by
  simp only [List.mem_cons, List.not_mem_nil, or_false] at hb
  rcases hb with rfl | rfl | rfl
  all_goals exact StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretches

/-! ## The boundaries, from the launch memory -/

variable (m : (ℓ : Loc nD τ sig) → Buf (Elt Ideal) ℓ) (ρ : Dev nD → PrngReg)

/-- The source row of the edge list as launched. -/
abbrev srcRow (c : Dev nD) := Cert.Spec.src (m ((c : Thread nD τ).loc main_arg1))
/-- The destination row of the edge list as launched. -/
abbrev dstRow (c : Dev nD) := Cert.Spec.dst (m ((c : Thread nD τ).loc main_arg1))
/-- The inverse in-degrees. -/
abbrev invRow (c : Dev nD) := Cert.Spec.invDegree (Cert.Spec.dst (m ((c : Thread nD τ).loc main_arg1)))
/-- The first layer's output, as the host's operations state it. -/
abbrev layer1 (c : Dev nD) := Cert.Spec.hidden1 (m ((c : Thread nD τ).loc main_arg0)) (m ((c : Thread nD τ).loc main_arg1)) (m ((c : Thread nD τ).loc main_arg2)) (m ((c : Thread nD τ).loc main_arg3)) (m ((c : Thread nD τ).loc main_arg4))
/-- The second layer's output. -/
abbrev layer2 (c : Dev nD) := Cert.Spec.hidden2 (layer1 m c) (m ((c : Thread nD τ).loc main_arg1)) (m ((c : Thread nD τ).loc main_arg5)) (m ((c : Thread nD τ).loc main_arg6)) (m ((c : Thread nD τ).loc main_arg7))
/-- The last layer's output. -/
abbrev layer3 (c : Dev nD) := Cert.Spec.logits (layer2 m c) (m ((c : Thread nD τ).loc main_arg1)) (m ((c : Thread nD τ).loc main_arg8)) (m ((c : Thread nD τ).loc main_arg9)) (m ((c : Thread nD τ).loc main_arg10))

/-! ### After the first stretch and the selection (`W2`) -/

theorem W1_arg (c : Dev nD) (b : Ref sig .tc) (hb : b ∈ ([main_arg0, main_arg2, main_arg3, main_arg4, main_arg5, main_arg6, main_arg7, main_arg8, main_arg9, main_arg10] : List (Ref sig .tc))) :
    W1 m ρ c (Proc.devRef .tc b) = m ((c : Thread nD τ).loc b) :=
  keep_first (W0 m ρ c) b hb

theorem W2_arg (c : Dev nD) (b : Ref sig .tc) (hb : b ∈ ([main_arg0, main_arg2, main_arg3, main_arg4, main_arg5, main_arg6, main_arg7, main_arg8, main_arg9, main_arg10] : List (Ref sig .tc))) :
    W2 m ρ c (Proc.devRef .tc b) = m ((c : Thread nD τ).loc b) :=
  (keep_select (W1 m ρ c) b (List.mem_cons_of_mem _ (List.mem_cons_of_mem _ hb))).trans (W1_arg m ρ c b hb)

theorem W2_src (c : Dev nD) : W2 m ρ c (Proc.devRef .tc main_v1) = srcRow m c :=
  (keep_select (W1 m ρ c) main_v1 (by decide)).trans (first_src (W0 m ρ c))

theorem W2_dst (c : Dev nD) : W2 m ρ c (Proc.devRef .tc main_v3) = dstRow m c :=
  (keep_select (W1 m ρ c) main_v3 (by decide)).trans (first_dst (W0 m ρ c))

theorem W2_inv (c : Dev nD) : W2 m ρ c (Proc.devRef .tc main_v14) = invRow m c := by
  refine (select_inv (W1 m ρ c)).trans ?_
  have e9 : W1 m ρ c (Proc.devRef .tc main_v9) = _ := first_pos (W0 m ρ c)
  have e13 : W1 m ρ c (Proc.devRef .tc main_v13) = _ := first_quot (W0 m ρ c)
  have e4 : W1 m ρ c (Proc.devRef .tc main_cst_4) = _ := first_zero (W0 m ρ c)
  rw [e9, e13, e4]
  rfl

/-! ### At region 0's entry (`W3`) and exit (`W4`) -/

theorem W3_keep (c : Dev nD) (b : Ref sig .tc) (hb : b ∈ ([main_v1, main_v3, main_v14, main_arg0, main_arg2, main_arg4, main_arg5, main_arg6, main_arg7, main_arg8, main_arg9, main_arg10] : List (Ref sig .tc))) :
    W3 m ρ c (Proc.devRef .tc b) = W2 m ρ c (Proc.devRef .tc b) :=
  keep_mean0 (W2 m ρ c) b hb

theorem V3_mean (c : Dev nD) : V3 m ρ c main_v27 = Cert.Spec.mean (m ((c : Thread nD τ).loc main_arg0)) (srcRow m c) (dstRow m c) (invRow m c) := by
  refine (mean0 (W2 m ρ c)).trans ?_
  rw [W2_arg m ρ c main_arg0 (by decide), W2_src, W2_dst, W2_inv]

theorem V3_bias (c : Dev nD) : V3 m ρ c main_v28 = shapeCast S1x128 (m ((c : Thread nD τ).loc main_arg3)) Facts₀.shapeCasts_S128_S1x128 := by
  refine (bias0 (W2 m ρ c)).trans ?_
  rw [W2_arg m ρ c main_arg3 (by decide)]

theorem V3_arg (c : Dev nD) (b : Ref sig .tc) (hb : b ∈ ([main_arg0, main_arg2, main_arg4] : List (Ref sig .tc))) :
    V3 m ρ c b = m ((c : Thread nD τ).loc b) := by
  simp only [List.mem_cons, List.not_mem_nil, or_false] at hb
  rcases hb with rfl | rfl | rfl
  · exact (W3_keep m ρ c main_arg0 (by decide)).trans (W2_arg m ρ c main_arg0 (by decide))
  · exact (W3_keep m ρ c main_arg2 (by decide)).trans (W2_arg m ρ c main_arg2 (by decide))
  · exact (W3_keep m ρ c main_arg4 (by decide)).trans (W2_arg m ρ c main_arg4 (by decide))

/-- Region 0 leaves the first layer's output in its result array. -/
theorem W4_layer1 (c : Dev nD) : W4 m ρ c (Proc.devRef .tc main_v29) = layer1 m c := by
  refine (W4_arr m ρ c 5).trans ((Cert.KernelIdeal.Region0.final (V3 m ρ) c).trans ?_)
  rw [V3_mean, V3_bias, V3_arg m ρ c main_arg0 (by decide), V3_arg m ρ c main_arg2 (by decide), V3_arg m ρ c main_arg4 (by decide)]
  exact (Cert.Spec.relu_layer128_eq _ _ _ _ _ _).symm

theorem W4_src (c : Dev nD) : W4 m ρ c (Proc.devRef .tc main_v1) = srcRow m c :=
  (W4_of_ne m ρ c main_v1 (by decide)).trans ((W3_keep m ρ c main_v1 (by decide)).trans (W2_src m ρ c))
theorem W4_dst (c : Dev nD) : W4 m ρ c (Proc.devRef .tc main_v3) = dstRow m c :=
  (W4_of_ne m ρ c main_v3 (by decide)).trans ((W3_keep m ρ c main_v3 (by decide)).trans (W2_dst m ρ c))
theorem W4_inv (c : Dev nD) : W4 m ρ c (Proc.devRef .tc main_v14) = invRow m c :=
  (W4_of_ne m ρ c main_v14 (by decide)).trans ((W3_keep m ρ c main_v14 (by decide)).trans (W2_inv m ρ c))
theorem W4_arg (c : Dev nD) (b : Ref sig .tc) (hb : b ∈ ([main_arg5, main_arg6, main_arg7, main_arg8, main_arg9, main_arg10] : List (Ref sig .tc))) :
    W4 m ρ c (Proc.devRef .tc b) = m ((c : Thread nD τ).loc b) := by
  simp only [List.mem_cons, List.not_mem_nil, or_false] at hb
  rcases hb with rfl | rfl | rfl | rfl | rfl | rfl
  · exact (W4_of_ne m ρ c main_arg5 (by decide)).trans ((W3_keep m ρ c main_arg5 (by decide)).trans (W2_arg m ρ c main_arg5 (by decide)))
  · exact (W4_of_ne m ρ c main_arg6 (by decide)).trans ((W3_keep m ρ c main_arg6 (by decide)).trans (W2_arg m ρ c main_arg6 (by decide)))
  · exact (W4_of_ne m ρ c main_arg7 (by decide)).trans ((W3_keep m ρ c main_arg7 (by decide)).trans (W2_arg m ρ c main_arg7 (by decide)))
  · exact (W4_of_ne m ρ c main_arg8 (by decide)).trans ((W3_keep m ρ c main_arg8 (by decide)).trans (W2_arg m ρ c main_arg8 (by decide)))
  · exact (W4_of_ne m ρ c main_arg9 (by decide)).trans ((W3_keep m ρ c main_arg9 (by decide)).trans (W2_arg m ρ c main_arg9 (by decide)))
  · exact (W4_of_ne m ρ c main_arg10 (by decide)).trans ((W3_keep m ρ c main_arg10 (by decide)).trans (W2_arg m ρ c main_arg10 (by decide)))

/-! ### At region 1's entry (`W5`) and exit (`W6`) -/

theorem W5_keep (c : Dev nD) (b : Ref sig .tc) (hb : b ∈ ([main_v1, main_v3, main_v14, main_v29, main_arg5, main_arg7, main_arg8, main_arg9, main_arg10] : List (Ref sig .tc))) :
    W5 m ρ c (Proc.devRef .tc b) = W4 m ρ c (Proc.devRef .tc b) :=
  keep_mean1 (W4 m ρ c) b hb

theorem V5_mean (c : Dev nD) : V5 m ρ c main_v42 = Cert.Spec.mean (layer1 m c) (srcRow m c) (dstRow m c) (invRow m c) := by
  refine (mean1 (W4 m ρ c)).trans ?_
  rw [W4_layer1, W4_src, W4_dst, W4_inv]

theorem V5_bias (c : Dev nD) : V5 m ρ c main_v43 = shapeCast S1x128 (m ((c : Thread nD τ).loc main_arg6)) Facts₀.shapeCasts_S128_S1x128 := by
  refine (bias1 (W4 m ρ c)).trans ?_
  rw [W4_arg m ρ c main_arg6 (by decide)]

theorem V5_layer1 (c : Dev nD) : V5 m ρ c main_v29 = layer1 m c :=
  (W5_keep m ρ c main_v29 (by decide)).trans (W4_layer1 m ρ c)

theorem V5_arg5 (c : Dev nD) : V5 m ρ c main_arg5 = m ((c : Thread nD τ).loc main_arg5) :=
  (W5_keep m ρ c main_arg5 (by decide)).trans (W4_arg m ρ c main_arg5 (by decide))
theorem V5_arg7 (c : Dev nD) : V5 m ρ c main_arg7 = m ((c : Thread nD τ).loc main_arg7) :=
  (W5_keep m ρ c main_arg7 (by decide)).trans (W4_arg m ρ c main_arg7 (by decide))

/-- Region 1 leaves the second layer's output in its result array. -/
theorem W6_layer2 (c : Dev nD) : W6 m ρ c (Proc.devRef .tc main_v44) = layer2 m c := by
  refine (W6_arr m ρ c 5).trans ((Cert.KernelIdeal.Region1.final (V5 m ρ) c).trans ?_)
  rw [V5_mean, V5_bias, V5_layer1, V5_arg5, V5_arg7]
  exact (Cert.Spec.layer128_eq _ _ _ _ _ _).symm

theorem W6_src (c : Dev nD) : W6 m ρ c (Proc.devRef .tc main_v1) = srcRow m c :=
  (W6_of_ne m ρ c main_v1 (by decide)).trans ((W5_keep m ρ c main_v1 (by decide)).trans (W4_src m ρ c))
theorem W6_dst (c : Dev nD) : W6 m ρ c (Proc.devRef .tc main_v3) = dstRow m c :=
  (W6_of_ne m ρ c main_v3 (by decide)).trans ((W5_keep m ρ c main_v3 (by decide)).trans (W4_dst m ρ c))
theorem W6_inv (c : Dev nD) : W6 m ρ c (Proc.devRef .tc main_v14) = invRow m c :=
  (W6_of_ne m ρ c main_v14 (by decide)).trans ((W5_keep m ρ c main_v14 (by decide)).trans (W4_inv m ρ c))
theorem W6_arg8 (c : Dev nD) : W6 m ρ c (Proc.devRef .tc main_arg8) = m ((c : Thread nD τ).loc main_arg8) :=
  (W6_of_ne m ρ c main_arg8 (by decide)).trans ((W5_keep m ρ c main_arg8 (by decide)).trans (W4_arg m ρ c main_arg8 (by decide)))
theorem W6_arg9 (c : Dev nD) : W6 m ρ c (Proc.devRef .tc main_arg9) = m ((c : Thread nD τ).loc main_arg9) :=
  (W6_of_ne m ρ c main_arg9 (by decide)).trans ((W5_keep m ρ c main_arg9 (by decide)).trans (W4_arg m ρ c main_arg9 (by decide)))
theorem W6_arg10 (c : Dev nD) : W6 m ρ c (Proc.devRef .tc main_arg10) = m ((c : Thread nD τ).loc main_arg10) :=
  (W6_of_ne m ρ c main_arg10 (by decide)).trans ((W5_keep m ρ c main_arg10 (by decide)).trans (W4_arg m ρ c main_arg10 (by decide)))

/-! ### At region 2's entry (`W7`) and exit (`W8`) -/

theorem W7_keep (c : Dev nD) (b : Ref sig .tc) (hb : b ∈ ([main_v44, main_arg8, main_arg10] : List (Ref sig .tc))) :
    W7 m ρ c (Proc.devRef .tc b) = W6 m ρ c (Proc.devRef .tc b) :=
  keep_mean2 (W6 m ρ c) b hb

theorem V7_mean (c : Dev nD) : V7 m ρ c main_v57 = Cert.Spec.mean (layer2 m c) (srcRow m c) (dstRow m c) (invRow m c) := by
  refine (mean2 (W6 m ρ c)).trans ?_
  rw [W6_layer2, W6_src, W6_dst, W6_inv]

theorem V7_bias (c : Dev nD) : V7 m ρ c main_v58 = shapeCast S1x4 (m ((c : Thread nD τ).loc main_arg9)) Facts₀.shapeCasts_S4_S1x4 := by
  refine (bias2 (W6 m ρ c)).trans ?_
  rw [W6_arg9]

theorem V7_layer2 (c : Dev nD) : V7 m ρ c main_v44 = layer2 m c :=
  (W7_keep m ρ c main_v44 (by decide)).trans (W6_layer2 m ρ c)
theorem V7_arg8 (c : Dev nD) : V7 m ρ c main_arg8 = m ((c : Thread nD τ).loc main_arg8) :=
  (W7_keep m ρ c main_arg8 (by decide)).trans (W6_arg8 m ρ c)
theorem V7_arg10 (c : Dev nD) : V7 m ρ c main_arg10 = m ((c : Thread nD τ).loc main_arg10) :=
  (W7_keep m ρ c main_arg10 (by decide)).trans (W6_arg10 m ρ c)

/-- Region 2 leaves the last layer's output in its result array. -/
theorem W8_layer3 (c : Dev nD) : W8 m ρ c (Proc.devRef .tc main_v59) = layer3 m c := by
  refine (W8_arr m ρ c 5).trans ((Cert.KernelIdeal.Region2.final (V7 m ρ) c).trans ?_)
  rw [V7_mean, V7_bias, V7_layer2, V7_arg8, V7_arg10]
  exact (Cert.Spec.layer4_eq _ _ _ _ _ _).symm

/-- Region 2 only reads the second layer's output: its array ends as the region found it. -/
theorem W8_layer2 (c : Dev nD) : W8 m ρ c (Proc.devRef .tc main_v44) = layer2 m c :=
  (W8_arr m ρ c 1).trans ((((dat2 (V7 m ρ) c).arrAt_in 1 rfl _).trans (A_eq2 (V7 m ρ) c 1)).trans (V7_layer2 m ρ c))

end Cert.KernelIdeal.Boundaries

end
-- ==== Proof.RefValue.lean ====
/-
  The reference's three results are the network of `Spec` applied to its arguments: its run states each result as the
  composed term of its host operations, and that term IS the composition of the edge rows, the inverse in-degrees, the
  neighbourhood means and the three layers — the same operations in the same order, so the two spellings unfold to one
  term.
-/
import proofs.«173614_j12687333392406_1_alg».proof.Proof.RefRunP
import proofs.«173614_j12687333392406_1_alg».proof.Proof.Spec

set_option maxRecDepth 16384

noncomputable section

namespace Cert.ReferenceIdeal.RefValue

open Idealize.ShloMosaic Idealize.ShloMosaic.TcCoe Idealize.SL.Sem Idealize.ShloMosaic.StableHlo
open Cert.ReferenceIdeal

variable (m : (ℓ : Loc nD τ sig) → Buf (Elt Ideal) ℓ)

/-- The first layer's output of the reference's arguments. -/
abbrev layer1 (c : Dev nD) := Cert.Spec.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The second layer's output. -/
abbrev layer2 (c : Dev nD) := Cert.Spec.hidden2 (layer1 m c) (m ((c.tc : Thread nD τ).loc main_arg1)) (m ((c.tc : Thread nD τ).loc main_arg5)) (m ((c.tc : Thread nD τ).loc main_arg6)) (m ((c.tc : Thread nD τ).loc main_arg7))
/-- The last layer's output. -/
abbrev layer3 (c : Dev nD) := Cert.Spec.logits (layer2 m c) (m ((c.tc : Thread nD τ).loc main_arg1)) (m ((c.tc : Thread nD τ).loc main_arg8)) (m ((c.tc : Thread nD τ).loc main_arg9)) (m ((c.tc : Thread nD τ).loc main_arg10))

set_option maxHeartbeats 2000000 in
/-- The reference's third result is the second layer's output. -/
theorem second_eq (c : Dev nD) : Cert.ReferenceIdeal.RunP.res_main_v53 (F := Ideal) m c = layer2 m c := by
  unfold Cert.ReferenceIdeal.RunP.res_main_v53 layer2 layer1 Cert.Spec.hidden2 Cert.Spec.hidden1 Cert.Spec.layer128 Cert.Spec.relu Cert.Spec.mean Cert.Spec.invDegree Cert.Spec.degree Cert.Spec.src Cert.Spec.dst
  rfl

set_option maxHeartbeats 2000000 in
/-- The reference's first two results are the last layer's output. -/
theorem last_eq (c : Dev nD) : Cert.ReferenceIdeal.RunP.res_main_v72 (F := Ideal) m c = layer3 m c := by
  unfold Cert.ReferenceIdeal.RunP.res_main_v72 layer3 layer2 layer1 Cert.Spec.logits Cert.Spec.hidden2 Cert.Spec.hidden1 Cert.Spec.layer4 Cert.Spec.layer128 Cert.Spec.relu Cert.Spec.mean Cert.Spec.invDegree Cert.Spec.degree Cert.Spec.src Cert.Spec.dst
  rfl

end Cert.ReferenceIdeal.RefValue

end
-- ==== Proof.lean ====
/-
  The claim: a three-layer neighbourhood-averaging network over 50000 nodes and 800000 edges. Each layer is
  mean · Wl + bias + x · Wr, where mean averages the layer's input over every node's in-neighbours; the first layer is
  clamped below at zero; the results are the last layer's output (twice) and the second layer's.
  The kernel program computes the edge rows, the inverse in-degrees and the neighbourhood means on the host, exactly as
  the reference does, and each layer's two matrix products, their sum and the bias on blocks of 5000 rows; the
  reference adds the bias to the first product before the second product. Over the extended reals the two orders of
  addition give one number — addition there is commutative and associative, infinities included — so no finiteness is
  used and the precondition is never opened. Both programs' results are the same three functions of the arguments
  (`Spec`): the kernel's by following its buffers from boundary to boundary of its run (`Boundaries`, over the three
  regions' values `Region0` … `Region2` and the run `Results`), the reference's by unfolding (`RefValue`).
  The three frames: the two kernel programs' are the generated frame certificates; the reference's is its run with the
  results dropped. The idealization rewrote no operation, so `preserves` states nothing.
-/
import proofs.«173614_j12687333392406_1_alg».proof.Defs
import proofs.«173614_j12687333392406_1_alg».proof.Proof.Gen.Kernel
import proofs.«173614_j12687333392406_1_alg».proof.Proof.Gen.Kernel.Frame
import proofs.«173614_j12687333392406_1_alg».proof.Proof.Gen.KernelIdeal
import proofs.«173614_j12687333392406_1_alg».proof.Proof.Gen.KernelIdeal.Frame
import proofs.«173614_j12687333392406_1_alg».proof.Proof.Gen.ReferenceIdeal
import proofs.«173614_j12687333392406_1_alg».proof.Proof.Gen.Pre_finite_inputs
import proofs.«173614_j12687333392406_1_alg».proof.Proof.Results
import proofs.«173614_j12687333392406_1_alg».proof.Proof.Boundaries
import proofs.«173614_j12687333392406_1_alg».proof.Proof.RefRunP
import proofs.«173614_j12687333392406_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results dropped. -/
theorem frame_referenceIdeal : Cert.frame_ReferenceIdeal := fun m ρ _ =>
  (θ_run Cert.ReferenceIdeal.defs _ _).mono (fun _ h c => (h c).2.2.2) (Cert.ReferenceIdeal.RunP.run (F := Ideal) m ρ)

theorem preserves : Cert.preserves_Kernel_KernelIdeal := trivial

/-- Both programs end with the last layer's output in their first two results and the second layer's in the third:
    the kernel program's by its boundaries, the reference's by unfolding, at arguments that agree. -/
theorem algebraic : Cert.algebraic_KernelIdeal_ReferenceIdeal := by
  intro m ρ m' ρ' _ hagree
  refine ⟨fun c => Cert.KernelIdeal.Boundaries.layer3 m c, fun c => Cert.KernelIdeal.Boundaries.layer3 m c,
    fun c => Cert.KernelIdeal.Boundaries.layer2 m c, ?_, ?_⟩
  · exact (θ_run Cert.KernelIdeal.defs _ _).mono (fun _ h c =>
      ⟨(h c).1.trans (Cert.KernelIdeal.Boundaries.W8_layer3 m ρ c),
       (h c).1.trans (Cert.KernelIdeal.Boundaries.W8_layer3 m ρ c),
       (h c).2.1.trans (Cert.KernelIdeal.Boundaries.W8_layer2 m ρ c),
       (h c).2.2⟩) (Cert.KernelIdeal.Results.run (F := Ideal) m ρ)
  · refine (θ_run Cert.ReferenceIdeal.defs _ _).mono (fun _ h c => ?_) (Cert.ReferenceIdeal.RunP.run (F := Ideal) m' ρ')
    obtain ⟨a0, a1, a2, a3, a4, a5, a6, a7, a8, a9, a10⟩ := hagree c
    have e3 : Cert.ReferenceIdeal.RefValue.layer3 m' c = Cert.KernelIdeal.Boundaries.layer3 m c := by
      unfold Cert.ReferenceIdeal.RefValue.layer3 Cert.ReferenceIdeal.RefValue.layer2 Cert.ReferenceIdeal.RefValue.layer1
      rw [a0, a1, a2, a3, a4, a5, a6, a7, a8, a9, a10]
    have e2 : Cert.ReferenceIdeal.RefValue.layer2 m' c = Cert.KernelIdeal.Boundaries.layer2 m c := by
      unfold Cert.ReferenceIdeal.RefValue.layer2 Cert.ReferenceIdeal.RefValue.layer1
      rw [a0, a1, a2, a3, a4, a5, a6, a7]
    exact ⟨(h c).1.trans ((Cert.ReferenceIdeal.RefValue.last_eq m' c).trans e3),
      (h c).2.1.trans ((Cert.ReferenceIdeal.RefValue.last_eq m' c).trans e3),
      (h c).2.2.1.trans ((Cert.ReferenceIdeal.RefValue.second_eq m' c).trans e2),
      (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
